-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S10 : Shape := ⟨1, ![10]⟩
abbrev S4096x10 : Shape := ⟨2, ![4096, 10]⟩
abbrev S1024x4096 : Shape := ⟨2, ![1024, 4096]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S10 : S_.BroadcastsInDim S10 (![] : Fin 0 → Fin S10.rank)
  reducesTo_S10_S_d0 : S10.ReducesTo [0] S_
  bcast_S_S4096x10 : S_.BroadcastsInDim S4096x10 (![] : Fin 0 → Fin S4096x10.rank)
  reducesTo_S4096x10_S_d0_1 : S4096x10.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S8x2048x1024 .f32) (main_arg1 : FVec F S10 .f32) (main_arg2 : FVec F S4096x10 .f32) (main_arg3 : FVec F S1024x4096 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S10 .f32 := Host.absf main_arg1
  let main_cst_0 : FVec F S_ .f32 := constant S_ .f32 0x7F800000#32
  let main_v5 : FVec F S10 .f32 := broadcastInDim S10 ![] bcast_S_S10 main_cst_0
  let main_v6 : IVec S10 1 := cmpf .olt main_v4 main_v5
  let main_c_1 : IVec S_ 1 := constantI S_ 1 1#1
  let main_v7 : IVec S_ 1 := (fun x v => Host.reduce IntOp.andi x v reducesTo_S10_S_d0 h_S_) main_v6 main_c_1
  let main_v8 : IVec S_ 1 := andi main_v3 main_v7
  let main_v9 : FVec F S4096x10 .f32 := Host.absf main_arg2
  let main_cst_2 : FVec F S_ .f32 := constant S_ .f32 0x7F800000#32
  let main_v10 : FVec F S4096x10 .f32 := broadcastInDim S4096x10 ![] bcast_S_S4096x10 main_cst_2
  let main_v11 : IVec S4096x10 1 := cmpf .olt main_v9 main_v10
  let main_c_3 : IVec S_ 1 := constantI S_ 1 1#1
  let main_v12 : IVec S_ 1 := (fun x v => Host.reduce IntOp.andi x v reducesTo_S4096x10_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Kernel.lean ====
abbrev S8x2048x1024 : Shape := ⟨3, ![8, 2048, 1024]⟩
abbrev S10 : Shape := ⟨1, ![10]⟩
abbrev S4096x10 : Shape := ⟨2, ![4096, 10]⟩
abbrev S1024x4096 : Shape := ⟨2, ![1024, 4096]⟩
abbrev S16384x1024 : Shape := ⟨2, ![16384, 1024]⟩
abbrev S1x10 : Shape := ⟨2, ![1, 10]⟩
abbrev S1024x128 : Shape := ⟨2, ![1024, 128]⟩
abbrev S1024x1024 : Shape := ⟨2, ![1024, 1024]⟩
abbrev S1024x10 : Shape := ⟨2, ![1024, 10]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S10, .f32⟩
  | .hbm, ⟨2, _⟩ => ⟨S4096x10, .f32⟩
  | .hbm, ⟨3, _⟩ => ⟨S1024x4096, .f32⟩
  | .hbm, ⟨4, _⟩ => ⟨S16384x1024, .f32⟩
  | .hbm, ⟨5, _⟩ => ⟨S1x10, .f32⟩
  | .hbm, ⟨6, _⟩ => ⟨S4096x10, .bf16⟩
  | .hbm, ⟨7, _⟩ => ⟨S1024x4096, .bf16⟩
  | .hbm, ⟨8, _⟩ => ⟨S16384x1024, .f32⟩
  | .hbm, ⟨9, _⟩ => ⟨S8x2048x1024, .f32⟩
  | .local _ .vmem, ⟨0, _⟩ => ⟨S1024x128, .f32⟩
  | .local _ .vmem, ⟨1, _⟩ => ⟨S1024x128, .f32⟩
  | .local _ .vmem, ⟨2, _⟩ => ⟨S1x10, .f32⟩
  | .local _ .vmem, ⟨3, _⟩ => ⟨S4096x10, .bf16⟩
  | .local _ .vmem, ⟨4, _⟩ => ⟨S1024x4096, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x10 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x2048x1024_S16384x1024 : S8x2048x1024.ShapeCasts S16384x1024
  shapeCasts_S10_S1x10 : S10.ShapeCasts S1x10
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x10 : S1024x128.Slices ![0, 0] S1024x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S4096x10_S1024x10_0_0 : ∀ a, (![0, 0] : Fin 2 → Nat) a + S1024x10.size a ≤ S4096x10.size a
  h_S1024x10 : 0 < S1024x10.numel
  shapeCasts_S1024x10_S1024x10 : S1024x10.ShapeCasts S1024x10
  inb_S1024x4096_S1024x1024_0_0 : ∀ a, (![0, 0] : Fin 2 → Nat) a + S1024x1024.size a ≤ S1024x4096.size a
  inb_S4096x10_S1024x10_1024_0 : ∀ a, (![1024, 0] : Fin 2 → Nat) a + S1024x10.size a ≤ S4096x10.size a
  inb_S1024x4096_S1024x1024_0_1024 : ∀ a, (![0, 1024] : Fin 2 → Nat) a + S1024x1024.size a ≤ S1024x4096.size a
  inb_S4096x10_S1024x10_2048_0 : ∀ a, (![2048, 0] : Fin 2 → Nat) a + S1024x10.size a ≤ S4096x10.size a
  inb_S1024x4096_S1024x1024_0_2048 : ∀ a, (![0, 2048] : Fin 2 → Nat) a + S1024x1024.size a ≤ S1024x4096.size a
  inb_S4096x10_S1024x10_3072_0 : ∀ a, (![3072, 0] : Fin 2 → Nat) a + S1024x10.size a ≤ S4096x10.size a
  inb_S1024x4096_S1024x1024_0_3072 : ∀ a, (![0, 3072] : Fin 2 → Nat) a + S1024x1024.size a ≤ S1024x4096.size a
  shapeCasts_S16384x1024_S8x2048x1024 : S16384x1024.ShapeCasts S8x2048x1024
  dot_S1024x10_S1024x10_S1024x1024_1_1_0_0_n_n_wf : DotDims.WF S1024x10 S1024x10 S1024x1024 [1] [1] [0] [0] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x1024.size a
  hwx0_0 : ∀ i : grid0.Coords, EltTy.bits .f32 = 32 ∨ (Rect.block (s := S16384x1024) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10.size a ≤ S1x10.size a
  hwx0_1 : ∀ i : grid0.Coords, EltTy.bits .f32 = 32 ∨ (Rect.block (s := S1x10) S1x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x10.size a ≤ S4096x10.size a
  hwx0_2 : ∀ i : grid0.Coords, EltTy.bits .bf16 = 32 ∨ (Rect.block (s := S4096x10) S4096x10.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def dot_S1024x10_S1024x10_S1024x1024_1_1_0_0_n_n : DotDims S1024x10 S1024x10 S1024x1024 where
  lhsContracting := [1]
  rhsContracting := [1]
  lhsNonContracting := [0]
  rhsNonContracting := [0]
  lhsBatch := []
  rhsBatch := []
  wf := dot_S1024x10_S1024x10_S1024x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S10 : Shape := ⟨1, ![10]⟩
abbrev S4096x10 : Shape := ⟨2, ![4096, 10]⟩
abbrev S1024x4096 : Shape := ⟨2, ![1024, 4096]⟩
abbrev S8x2048x10 : Shape := ⟨3, ![8, 2048, 10]⟩
abbrev S1x1x10 : Shape := ⟨3, ![1, 1, 10]⟩
abbrev S8x2048x4096 : Shape := ⟨3, ![8, 2048, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S10, .f32⟩
  | .hbm, ⟨2, _⟩ => ⟨S4096x10, .f32⟩
  | .hbm, ⟨3, _⟩ => ⟨S1024x4096, .f32⟩
  | .hbm, ⟨4, _⟩ => ⟨S8x2048x10, .f32⟩
  | .hbm, ⟨5, _⟩ => ⟨S8x2048x10, .f32⟩
  | .hbm, ⟨6, _⟩ => ⟨S10, .f32⟩
  | .hbm, ⟨7, _⟩ => ⟨S1x1x10, .f32⟩
  | .hbm, ⟨8, _⟩ => ⟨S8x2048x10, .f32⟩
  | .hbm, ⟨9, _⟩ => ⟨S8x2048x10, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  slices_S8x2048x1024_S8x2048x10_0_0_0 : S8x2048x1024.Slices ![0, 0, 0] S8x2048x10
  bcast_S10_S1x1x10_2 : S10.BroadcastsInDim S1x1x10 (![2] : Fin 1 → Fin S1x1x10.rank)
  bcast_S1x1x10_S8x2048x10_0_1_2 : S1x1x10.BroadcastsInDim S8x2048x10 (![0, 1, 2] : Fin 3 → Fin S8x2048x10.rank)
  bcast_S_S8x2048x4096 : S_.BroadcastsInDim S8x2048x4096 (![] : Fin 0 → Fin S8x2048x4096.rank)
  dot_S8x2048x10_S4096x10_S8x2048x4096_2_1_01_0_n_n_wf : DotDims.WF S8x2048x10 S4096x10 S8x2048x4096 [2] [1] [0, 1] [0] [] []
  dot_S8x2048x4096_S1024x4096_S8x2048x1024_2_1_01_0_n_n_wf : DotDims.WF S8x2048x4096 S1024x4096 S8x2048x1024 [2] [1] [0, 1] [0] [] []

variable [Facts₀]

def dot_S8x2048x10_S4096x10_S8x2048x4096_2_1_01_0_n_n : DotDims S8x2048x10 S4096x10 S8x2048x4096 where
  lhsContracting := [2]
  rhsContracting := [1]
  lhsNonContracting := [0, 1]
  rhsNonContracting := [0]
  lhsBatch := []
  rhsBatch := []
  wf := dot_S8x2048x10_S4096x10_S8x2048x4096_2_1_01_0_n_n_wf
def dot_S8x2048x4096_S1024x4096_S8x2048x1024_2_1_01_0_n_n : DotDims S8x2048x4096 S1024x4096 S8x2048x1024 where
  lhsContracting := [2]
  rhsContracting := [1]
  lhsNonContracting := [0, 1]
  rhsNonContracting := [0]
  lhsBatch := []
  rhsBatch := []
  wf := dot_S8x2048x4096_S1024x4096_S8x2048x1024_2_1_01_0_n_n_wf

class Facts : Prop extends Facts₀ where

variable [Facts]
-- ==== Proof.LibAxisTiles.lean ====
/-
  An axis cut into consecutive tiles of equal width, and a sum over the axis regrouped tile by tile.

  An axis of extent `N = Tn · R` is the disjoint union of `Tn` consecutive tiles of width `R`: coordinate
  `R · s + r` is position `r` of tile `s`. A sum over the axis, in any commutative additive monoid, is therefore the
  sum over the tiles of the sums inside each tile. This is the law by which a contraction accumulated block by block
  (one block of the contracted axis per grid point or loop trip) equals the contraction taken whole; it needs no
  finiteness of the terms, so it holds on the extended reals as it stands.
-/
import Mathlib.Algebra.BigOperators.Fin

namespace Cert.LibAxisTiles

open scoped BigOperators

variable {Tn R N : ℕ}

/-- Position `r` of tile `s` on an axis of extent `N = Tn · R` cut into `Tn` consecutive tiles of width `R`:
    the coordinate `R · s + r`. -/
def tileIdx (hN : N = Tn * R) (s : Fin Tn) (r : Fin R) : Fin N :=
  ⟨R * s.val + r.val, by
    subst hN
    calc R * s.val + r.val < R * s.val + R := Nat.add_lt_add_left r.isLt _
      _ = R * (s.val + 1) := (Nat.mul_succ R s.val).symm
      _ ≤ R * Tn := Nat.mul_le_mul_left R s.isLt
      _ = Tn * R := Nat.mul_comm R Tn⟩

/-- The coordinate of position `r` of tile `s`. -/
@[simp] theorem tileIdx_val (hN : N = Tn * R) (s : Fin Tn) (r : Fin R) : (tileIdx hN s r).val = R * s.val + r.val := rfl

/-- A sum over the axis is the sum over the tiles of the sums inside each tile. -/
theorem sum_tiles {β : Type*} [AddCommMonoid β] (hN : N = Tn * R) (a : Fin N → β) :
    ∑ f : Fin N, a f = ∑ s : Fin Tn, ∑ r : Fin R, a (tileIdx hN s r) := by
  subst hN
  rw [← Equiv.sum_comp finProdFinEquiv a, Fintype.sum_prod_type]
  refine Finset.sum_congr rfl fun s _ => Finset.sum_congr rfl fun r _ => congrArg a (Fin.ext ?_)
  show r.val + R * s.val = R * s.val + r.val
  exact Nat.add_comm _ _

end Cert.LibAxisTiles
-- ==== Proof.Spec.lean ====
/-
  The feed-forward layer on ten cosine features, as a function of the argument arrays, and the law that joins its
  two computations.

  A token's ten features are φ q = cos x_q · cos θ_q for the first ten lanes x_q of the token and ten angles θ_q. The layer
  expands them to 4096 hidden units h_j = max (Σ_q φ q · w1 j q) 0 and contracts those against a row of the second
  weight matrix: out = Σ_j h_j · w2 j. One computation takes the sum over all 4096 hidden units at once; the other
  cuts the hidden axis into four consecutive blocks of 1024, forms each block's partial sum, and adds the partial sums
  one after another onto a zero. Over the extended reals the two agree with no hypothesis on the terms: a sum over
  the axis is the sum over the blocks of the sums inside each block, and adding onto zero changes nothing.
-/
import Idealize.ShloMosaic.PureOps.Ideal.Laws
import Idealize.ShloMosaic.Lib.ValueIdx
import proofs.«165231_j65481071397693_2_alg».proof.Proof.LibAxisTiles

noncomputable section

namespace Cert.CosFFN

open Idealize.ShloMosaic Idealize.ShloMosaic.ValueIdx Cert.LibAxisTiles
open scoped BigOperators

/-- The float word of zero, as an extended real (it is 0; only the accumulator's start needs to know). -/
abbrev zeroWord : EReal := Ideal.ofBits .f32 0x00000000#32

/-- One hidden unit: the feature row against one weight row, clamped below at the zero word. -/
def hiddenUnit (φ w : Fin 10 → EReal) : EReal := max (∑ q : Fin 10, φ q * w q) zeroWord

/-- The layer's output for a feature row: every hidden unit times its second-layer weight, summed over the 4096 units. -/
def layer (φ : Fin 10 → EReal) (w1 : Fin 4096 → Fin 10 → EReal) (w2 : Fin 4096 → EReal) : EReal :=
  ∑ j : Fin 4096, hiddenUnit φ (w1 j) * w2 j

/-- Hidden unit `k` of block `f` on the hidden axis of 4096 = 4 · 1024 units. -/
abbrev hid (f : Fin 4) (k : Fin 1024) : Fin 4096 := tileIdx (N := 4096) (Tn := 4) (R := 1024) rfl f k

/-- One block's partial sum: the 1024 hidden units of block `f`. -/
def blockSum (φ : Fin 10 → EReal) (w1 : Fin 4096 → Fin 10 → EReal) (w2 : Fin 4096 → EReal) (f : Fin 4) : EReal :=
  ∑ k : Fin 1024, hiddenUnit φ (w1 (hid f k)) * w2 (hid f k)

/-- The same output accumulated block by block from the zero word. -/
def layerBlocked (φ : Fin 10 → EReal) (w1 : Fin 4096 → Fin 10 → EReal) (w2 : Fin 4096 → EReal) : EReal :=
  (((zeroWord + blockSum φ w1 w2 0) + blockSum φ w1 w2 1) + blockSum φ w1 w2 2) + blockSum φ w1 w2 3

/-- Accumulating the four blocks' partial sums onto zero is the sum over the whole hidden axis. -/
theorem layerBlocked_eq (φ : Fin 10 → EReal) (w1 : Fin 4096 → Fin 10 → EReal) (w2 : Fin 4096 → EReal) :
    layerBlocked φ w1 w2 = layer φ w1 w2 := by
  unfold layerBlocked layer
  rw [sum_tiles (N := 4096) (Tn := 4) (R := 1024) rfl, Fin.sum_univ_four]
  show (((Ideal.ofBits .f32 0x00000000#32 + _) + _) + _) + _ = _
  rw [Ideal.ofBits_zero_f32, zero_add]
  rfl

/-- Lane `q` of the ten feature lanes, among the 1024 lanes of a token. -/
abbrev lane (q : Fin 10) : Fin 1024 := ⟨q.val, by have := q.isLt; omega⟩

/-- A token's feature row: cos of its first ten lanes `v` times cos of the ten angles. -/
def feature (v θ : Fin 10 → EReal) (q : Fin 10) : EReal := Ideal.cos (v q) * Ideal.cos (θ q)

/-- THE RESULT as one function of the four argument arrays: entry (b, s, e) is the layer's output for token (b, s)
    against row `e` of the second weight matrix. -/
def result (x : (⟨3, ![8, 2048, 1024]⟩ : Shape).Idx → EReal) (θ : (⟨1, ![10]⟩ : Shape).Idx → EReal)
    (w1 : (⟨2, ![4096, 10]⟩ : Shape).Idx → EReal) (w2 : (⟨2, ![1024, 4096]⟩ : Shape).Idx → EReal) :
    (⟨3, ![8, 2048, 1024]⟩ : Shape).Idx → EReal :=
  fun i => layer (feature (fun q => x (ix3 (i 0) (i 1) (lane q))) (fun q => θ (ix1 q))) (fun j q => w1 (ix2 j q)) (fun j => w2 (ix2 (i 2) j))

/-- The same over the tokens laid out as the 16384 rows of one matrix, the angles as a one-row matrix, and the hidden
    axis accumulated block by block: entry (r, e) for token row `r`. -/
def resultRows (X : (⟨2, ![16384, 1024]⟩ : Shape).Idx → EReal) (Θ : (⟨2, ![1, 10]⟩ : Shape).Idx → EReal)
    (w1 : (⟨2, ![4096, 10]⟩ : Shape).Idx → EReal) (w2 : (⟨2, ![1024, 4096]⟩ : Shape).Idx → EReal) :
    (⟨2, ![16384, 1024]⟩ : Shape).Idx → EReal :=
  fun i => layerBlocked (feature (fun q => X (ix2 (i 0) (lane q))) (fun q => Θ (ix2 (0 : Fin 1) q))) (fun j q => w1 (ix2 j q)) (fun j => w2 (ix2 (i 1) j))

/-- Token (b, s) is row 2048·b + s of the token matrix. -/
abbrev tokRow (b : Fin 8) (s : Fin 2048) : Fin 16384 := ⟨2048 * b.val + s.val, by have := b.isLt; have := s.isLt; omega⟩

/-- Over a token matrix whose row 2048·b + s is token (b, s) and a one-row matrix of the angles, the blocked
    row-matrix form is the result: entry (2048·b + s, e) of the one is entry (b, s, e) of the other. -/
theorem resultRows_eq (x : (⟨3, ![8, 2048, 1024]⟩ : Shape).Idx → EReal) (θ : (⟨1, ![10]⟩ : Shape).Idx → EReal)
    (w1 : (⟨2, ![4096, 10]⟩ : Shape).Idx → EReal) (w2 : (⟨2, ![1024, 4096]⟩ : Shape).Idx → EReal)
    (X : (⟨2, ![16384, 1024]⟩ : Shape).Idx → EReal) (Θ : (⟨2, ![1, 10]⟩ : Shape).Idx → EReal)
    (hX : ∀ (b : Fin 8) (s : Fin 2048) (l : Fin 1024), X (ix2 (tokRow b s) l) = x (ix3 b s l))
    (hΘ : ∀ q : Fin 10, Θ (ix2 (0 : Fin 1) q) = θ (ix1 q)) (b : Fin 8) (s : Fin 2048) (e : Fin 1024) :
    resultRows X Θ w1 w2 (ix2 (tokRow b s) e) = result x θ w1 w2 (ix3 b s e) := by
  unfold resultRows result
  rw [layerBlocked_eq]
  show layer (feature (fun q => X (ix2 (tokRow b s) (lane q))) (fun q => Θ (ix2 (0 : Fin 1) q))) _ _
    = layer (feature (fun q => x (ix3 b s (lane q))) (fun q => θ (ix1 q))) _ _
  simp only [hX, hΘ]

end Cert.CosFFN

end
-- ==== Proof.RefValue.lean ====
/-
  The reference program's result is the layer function of the argument arrays.

  Read one operation at a time, the reference slices the first ten lanes of every token, takes cosines, multiplies by
  the cosines of the angles, contracts the ten features against the first weight matrix, clamps at zero, and contracts
  the 4096 hidden units against the second weight matrix. Index by index that is `Cert.CosFFN.result`.
-/
import proofs.«165231_j65481071397693_2_alg».proof.Proof.Gen.ReferenceIdeal.Read
import proofs.«165231_j65481071397693_2_alg».proof.Proof.Spec

noncomputable section

namespace Cert.ReferenceIdeal.RefValue

open Cert.ReferenceIdeal Cert.ReferenceIdeal.Read Idealize.ShloMosaic Idealize.ShloMosaic.ValueIdx Cert.CosFFN
open scoped BigOperators

/-- One feature of a token, as the reference computes it. -/
theorem feature_eq (x0 : (⟨S8x2048x1024, .f32⟩ : BufTy).Contents (Elt Ideal)) (x1 : (⟨S10, .f32⟩ : BufTy).Contents (Elt Ideal))
    (i : S8x2048x1024.Idx) (j : Fin 4096) (q : Fin 10) :
    val_main_v5 (F := Ideal) x0 x1 (lidx_main_v6 (lidx_main_v8 i j) q)
      = feature (fun q => x0 (ix3 (i 0) (i 1) (lane q))) (fun q => x1 (ix1 q)) q := by
  have e0 : idx_main_v0 (lidx_main_v6 (lidx_main_v8 i j) q) = ix3 (i 0) (i 1) (lane q) :=
    funext fun a => Fin.ext (by match a with | ⟨0, _⟩ => rfl | ⟨1, _⟩ => rfl | ⟨2, _⟩ => rfl)
  have e1 : idx_main_v3 (idx_main_v4 (lidx_main_v6 (lidx_main_v8 i j) q)) = ix1 q :=
    funext fun a => Fin.ext (by match a with | ⟨0, _⟩ => rfl)
  rw [val_main_v5_apply, val_main_v1_apply, val_main_v0_apply, val_main_v4_apply, val_main_v3_apply, val_main_v2_apply, e0, e1]
  rfl

/-- The reference's result, index by index, is the layer function. -/
theorem reference_eq (x0 : (⟨S8x2048x1024, .f32⟩ : BufTy).Contents (Elt Ideal)) (x1 : (⟨S10, .f32⟩ : BufTy).Contents (Elt Ideal))
    (x2 : (⟨S4096x10, .f32⟩ : BufTy).Contents (Elt Ideal)) (x3 : (⟨S1024x4096, .f32⟩ : BufTy).Contents (Elt Ideal)) :
    val_main_v8 (F := Ideal) x0 x1 x2 x3 = result x0 x1 x2 x3 := by
  funext i
  rw [val_main_v8_apply]
  unfold result layer
  refine Finset.sum_congr rfl fun j _ => ?_
  have e3 : ridx_main_v8 i j = ix2 (i 2) j :=
    funext fun a => Fin.ext (by match a with | ⟨0, _⟩ => rfl | ⟨1, _⟩ => rfl)
  rw [e3, val_main_v7_apply, val_main_v6_apply, val_main_call0_v0_apply, val_main_call0_cst_apply]
  show max (∑ q : Fin 10, _) _ * _ = max (∑ q : Fin 10, _) _ * _
  congr 2
  refine Finset.sum_congr rfl fun q _ => ?_
  have e2 : ridx_main_v6 (lidx_main_v8 i j) q = ix2 j q :=
    funext fun a => Fin.ext (by match a with | ⟨0, _⟩ => rfl | ⟨1, _⟩ => rfl)
  rw [e2, feature_eq]

end Cert.ReferenceIdeal.RefValue

end
-- ==== Proof.LibReadBack.lean ====
/-
  Reading a buffer back after a run of whole-buffer stores.

  When the LAST store into a buffer wrote the whole of it, a load of the whole buffer afterwards reads that store's
  value, whatever the earlier stores were: the earlier writes are all overwritten. This is the read-back of an
  accumulator that is rewritten whole at each step of an unrolled loop.
-/
import Idealize.ShloMosaic.Lib.Pipeline.Value

namespace Cert.LibReadBack

open Idealize.ShloMosaic Idealize.ShloMosaic.View

variable {Val : EltTy → Type} {S : Shape} {e : EltTy}

/-- A load of the whole buffer, after stores the last of which wrote the whole buffer, reads that last store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self .., by
    show y ∈ (Rect.whole S).set; rw [Rect.set_whole]; exact Finset.mem_univ y⟩), canon_cons_unit_zero rfl, ld_unit_zero rfl]

end Cert.LibReadBack
-- ==== Proof.LibTransposedMatmul.lean ====
/-
  A matrix product against a transposed right operand, read at an entry.

  For the dimension numbers "contract the left operand's second axis with the right operand's SECOND axis" an `[M, K]` by
  `[N, K]` product, accumulated into a zero array, has at row `p` and column `c` the entry `∑ k, W p k · X c k` over the
  extended reals (the product `W · Xᵀ`): the contraction position is its one coordinate `k`, the left operand is read at
  `(p, k)` and the right one at `(c, k)`. The same reading holds of a host `dot_general` with those dimension numbers.
-/
import Idealize.ShloMosaic.PureOps.Ideal.Laws
import Idealize.ShloMosaic.Lib.ValueIdx

noncomputable section

namespace Cert.LibTransposedMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction position. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction position. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The sum over the contraction positions, re-indexed by the one coordinate. -/
theorem sum_contr {φ₁ φ₂ : FTy} (W : FVec Ideal ⟨2, ![M, K]⟩ φ₁) (X : FVec Ideal ⟨2, ![N, K]⟩ φ₂) (p : Fin M) (c : Fin N) :
    (∑ q : (DotDims.transposedRhs M K N).contr.Idx,
        W ((DotDims.transposedRhs M K N).lhsIdx (ix2 p c) q) * X ((DotDims.transposedRhs M K N).rhsIdx (ix2 p c) q))
      = ∑ k : Fin K, W (ix2 p k) * X (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => exact lhs_row M K N _ _
      | ⟨1, _⟩ => exact (lhs_col M K N _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => exact rhs_row M K N _ _
      | ⟨1, _⟩ => exact (rhs_col M K N _ _).trans hk)
  rw [el, er]

/-- A kernel's product against a transposed right operand into a zero accumulator, at an entry. -/
theorem matmul_zero_apply {φ₁ φ₂ : FTy} (prec : Option ContractPrecision) (W : FVec Ideal ⟨2, ![M, K]⟩ φ₁)
    (X : FVec Ideal ⟨2, ![N, K]⟩ φ₂) (p : Fin M) (c : Fin N) :
    matmul (DotDims.transposedRhs M K N) prec W X (constant (F := Ideal) ⟨2, ![M, N]⟩ .f32 0x00000000#32) (ix2 p c)
      = ∑ k : Fin K, W (ix2 p k) * X (ix2 c k) := by
  simp only [matmul]
  rw [Ideal.matmul_constant_zero_apply]
  exact sum_contr M K N W X p c

/-- A host product against a transposed right operand, at an entry. -/
theorem dotGeneral_apply {φ₁ φ₂ : FTy} (prec : Option ContractPrecision) (W : FVec Ideal ⟨2, ![M, K]⟩ φ₁)
    (X : FVec Ideal ⟨2, ![N, K]⟩ φ₂) (p : Fin M) (c : Fin N) :
    Host.dotGeneral (DotDims.transposedRhs M K N) prec W X (ix2 p c) = ∑ k : Fin K, W (ix2 p k) * X (ix2 c k) := by
  simp only [Host.dotGeneral]
  rw [Ideal.dotGeneral_apply]
  exact sum_contr M K N W X p c

end Cert.LibTransposedMatmul

end
-- ==== Proof.Body.lean ====
/-
  What one grid step of the kernel leaves in its output block, and its value entry by entry.

  A step holds 1024 tokens (a [1024, 128] block of their leading lanes), the angles, and both weight matrices whole.
  It forms the tokens' ten features once, then for each of the four blocks of 1024 hidden units multiplies the features
  by the block's rows of the first weight matrix, clamps at zero, multiplies by the block's columns of the second
  weight matrix, and adds the product onto an accumulator that started at zero; the accumulator is the step's output
  block. Each read-back of the accumulator returns what the step itself last wrote there, so the output is the four
  partial products added in order onto zero, and entry (p, e) of it is the blocked layer sum for token p and row e of
  the second weight matrix.
-/
import proofs.«165231_j65481071397693_2_alg».proof.Proof.Gen.KernelIdeal.Frame
import proofs.«165231_j65481071397693_2_alg».proof.Proof.LibReadBack
import proofs.«165231_j65481071397693_2_alg».proof.Proof.LibTransposedMatmul
import proofs.«165231_j65481071397693_2_alg».proof.Proof.Spec
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open scoped BigOperators

namespace Cert.KernelIdeal.Body

open Cert.KernelIdeal Cert.KernelIdeal.Gen Cert.CosFFN

variable {F : FTy → Type} [FloatOps F]

theorem hz : (![0, 0] : Fin 2 → Nat) = fun _ => 0 := funext fun a => by fin_cases a <;> rfl

/-- One block of hidden units' contribution to the 1024 tokens' outputs: features times the block's rows of the first
    weight matrix, clamped at zero, times the block's columns of the second weight matrix. -/
def blockOut (φ : FVec F S1024x10 .bf16) (w1c : Vec F S1024x10 .bf16) (w2c : Vec F S1024x1024 .bf16) : FVec F S1024x1024 .f32 :=
  matmul dot_S1024x1024_S1024x1024_S1024x1024_1_1_0_0_n_n none
    (truncf .bf16 (maximumf (matmul dot_S1024x10_S1024x10_S1024x1024_1_1_0_0_n_n none φ w1c (constant S1024x1024 .f32 0x00000000#32))
      (broadcast S1024x1024 (Scalar.ofBits .f32 0x00000000#32))) Facts₀.bitsLt_bf16_f32)
    w2c (constant S1024x1024 .f32 0x00000000#32)

/-- Rows `off` … `off + 1023` of the first weight matrix, and columns `off` … `off + 1023` of the second, as a load
    through a unit-stride rectangle reads them. -/
abbrev w1rows (x2 : Vec F S4096x10 .bf16) (off : Nat) (inb : ∀ a, (![off, 0] : Fin 2 → Nat) a + S1024x10.size a ≤ S4096x10.size a) :
    Vec F S1024x10 .bf16 := View.ld x2 (Rect.unit (s := S4096x10) ![off, 0] S1024x10.size inb)
abbrev w2cols (x3 : Vec F S1024x4096 .bf16) (off : Nat) (inb : ∀ a, (![0, off] : Fin 2 → Nat) a + S1024x1024.size a ≤ S1024x4096.size a) :
    Vec F S1024x1024 .bf16 := View.ld x3 (Rect.unit (s := S1024x4096) ![0, off] S1024x1024.size inb)

/-- What a step leaves in its output block: the four blocks' contributions added in order onto a zero block. -/
def stepOut (x0 : Vec F S1024x128 .f32) (x1 : Vec F S1x10 .f32) (x2 : Vec F S4096x10 .bf16) (x3 : Vec F S1024x4096 .bf16) :
    Vec F S1024x1024 .f32 :=
  addf (addf (addf (addf (broadcast S1024x1024 (Scalar.ofBits .f32 0x00000000#32))
    (blockOut (k0_pay2 x0 x1) (w1rows x2 0 Facts₀.inb_S4096x10_S1024x10_0_0) (w2cols x3 0 Facts₀.inb_S1024x4096_S1024x1024_0_0)))
    (blockOut (k0_pay2 x0 x1) (w1rows x2 1024 Facts₀.inb_S4096x10_S1024x10_1024_0) (w2cols x3 1024 Facts₀.inb_S1024x4096_S1024x1024_0_1024)))
    (blockOut (k0_pay2 x0 x1) (w1rows x2 2048 Facts₀.inb_S4096x10_S1024x10_2048_0) (w2cols x3 2048 Facts₀.inb_S1024x4096_S1024x1024_0_2048)))
    (blockOut (k0_pay2 x0 x1) (w1rows x2 3072 Facts₀.inb_S4096x10_S1024x10_3072_0) (w2cols x3 3072 Facts₀.inb_S1024x4096_S1024x1024_0_3072))

/-- The step's stores and read-backs of its accumulator, resolved: each load of the accumulator reads the value the
    step last stored whole, so the output block is `stepOut` of the step's input blocks. -/
theorem out_eq (c : Dev nD) (i : grid0.Coords) (a1 : Memref sig .tc .vmem S1024x128 .f32) (h1 : a1.IsWhole) (a2 : Memref sig .tc .vmem S1x10 .f32) (h2 : a2.IsWhole) (a3 : Memref sig .tc .vmem S4096x10 .bf16) (h3 : a3.IsWhole) (a4 : Memref sig .tc .vmem S1024x4096 .bf16) (h4 : a4.IsWhole) (a5 : Memref sig .tc .vmem S1024x1024 .f32) (h5 : a5.IsWhole) (a6 : Memref sig .tc .vmem S1024x1024 .f32) (h6 : a6.IsWhole)
    (x0 : Vec F S1024x128 .f32) (x1 : Vec F S1x10 .f32) (x2 : Vec F S4096x10 .bf16) (x3 : Vec F S1024x4096 .bf16) :
    out0_A_4 c i a1 h1 a2 h2 a3 h3 a4 h4 a5 h5 a6 h6 x0 x1 x2 x3 = stepOut x0 x1 x2 x3 := by
  unfold out0_A_4
  rw [View.read_writes_eq_canon _ _ _ (cover0_A_4 c i a1 h1 a2 h2 a3 h3 a4 h4 a5 h5 a6 h6 x0 x1 x2 x3)]
  unfold kernelRun0_A
  dsimp only
  sl_unfold_words
  rw [View.canon_unit_zero hz]
  simp only [Cert.LibReadBack.readCov_cons_unit_zero (S := S1024x1024) _ hz, View.readCov_unit_zero (S := S1024x1024) _ hz]
  simp only [View.readAt_eq_ld, h1.read_unread, h2.read_unread, h3.read_unread, h4.read_unread, View.ld_unit_zero (S := S1024x128) hz, View.ld_unit_zero (S := S1x10) hz]
  unfold k0_pay1 k0_pay8 k0_pay7 k0_pay6 k0_pay5 k0_pay4 k0_pay3 stepOut blockOut
  simp only [shapeCast_self]

end Cert.KernelIdeal.Body

end
-- ==== Proof.BodyValue.lean ====
/-
  The step's output block, entry by entry, over the extended reals.

  Entry (p, e) of what a step leaves is the blocked layer sum for the step's token p: its ten features are the cosines
  of the token's ten leading lanes times the cosines of the angles; block f of the hidden axis reads rows
  1024·f … 1024·f + 1023 of the first weight matrix and the same columns of row e of the second.
-/
import proofs.«165231_j65481071397693_2_alg».proof.Proof.Body

noncomputable section

open Idealize.ShloMosaic Idealize.ShloMosaic.TcCoe Idealize.SL.Sem Idealize.ShloMosaic.ValueIdx
open scoped BigOperators

namespace Cert.KernelIdeal.Body

open Cert.KernelIdeal Cert.KernelIdeal.Gen Cert.CosFFN Cert.LibAxisTiles

/-- Lane `q` of the ten feature lanes, among the 128 leading lanes a step holds. -/
abbrev lane128 (q : Fin 10) : Fin 128 := ⟨q.val, by have := q.isLt; omega⟩

/-- The features of the step's token `p`: the slice of its ten leading lanes, cosines, times the cosines of the angles'
    one row broadcast over the tokens (the change of float format is the identity on extended reals). -/
theorem feats_apply (x0 : Vec Ideal S1024x128 .f32) (x1 : Vec Ideal S1x10 .f32) (p : Fin 1024) (q : Fin 10) :
    k0_pay2 x0 x1 (ix2 p q) = feature (fun q => x0 (ix2 p (lane128 q))) (fun q => x1 (ix2 (0 : Fin 1) q)) q := by
  unfold k0_pay2
  simp only [shapeCast_self]
  show Ideal.cos (extractStridedSlice S1024x10 ![0, 0] x0 Facts₀.slices_S1024x128_o0_0_S1024x10 (ix2 p q))
      * (broadcastTo S1024x10 (cos (F := Ideal) (s := S1x10) (φ := .f32) x1) Facts₀.broadcasts_S1x10_S1024x10 (ix2 p q) : EReal) = _
  rw [slice2_axis1_apply 0 x0 Facts₀.slices_S1024x128_o0_0_S1024x10 p q (lane128 q) (Nat.zero_add _).symm, broadcastTo_1b_ab_apply]
  rfl

/-- One block's contribution at (p, e): the sum over the block's 1024 hidden units of the clamped feature product
    times the second-layer weight (both matrix products contract the operands' second axes, into zero). -/
theorem blockOut_apply (φ : FVec Ideal S1024x10 .bf16) (w1c : Vec Ideal S1024x10 .bf16) (w2c : Vec Ideal S1024x1024 .bf16)
    (p e : Fin 1024) :
    blockOut φ w1c w2c (ix2 p e) = ∑ k : Fin 1024, max (∑ q : Fin 10, φ (ix2 p q) * w1c (ix2 k q)) zeroWord * w2c (ix2 e k) := by
  unfold blockOut
  refine (Cert.LibTransposedMatmul.matmul_zero_apply (φ₁ := .bf16) (φ₂ := .bf16) 1024 1024 1024 none _ w2c p e).trans ?_
  refine Finset.sum_congr rfl fun k _ => ?_
  exact congrArg (fun z => max z zeroWord * w2c (ix2 e k))
    (Cert.LibTransposedMatmul.matmul_zero_apply (φ₁ := .bf16) (φ₂ := .bf16) 1024 10 1024 none φ w1c p k)

/-- The rows of the first weight matrix a block's load reads: row `k` of the load is row `off + k` of the matrix. -/
theorem w1rows_apply (x2 : Vec Ideal S4096x10 .bf16) (off : Nat) (inb) (k : Fin 1024) (q : Fin 10) (j : Fin 4096)
    (hj : j.val = off + k.val) : w1rows x2 off inb (ix2 k q) = x2 (ix2 j q) := by
  show x2 _ = x2 _
  refine congrArg x2 (funext fun a => Fin.ext ?_)
  match a with
  | ⟨0, _⟩ => show off + 1 * k.val = j.val; omega
  | ⟨1, _⟩ => show 0 + 1 * q.val = q.val; omega

/-- The columns of the second weight matrix a block's load reads: column `k` of the load is column `off + k`. -/
theorem w2cols_apply (x3 : Vec Ideal S1024x4096 .bf16) (off : Nat) (inb) (e k : Fin 1024) (j : Fin 4096)
    (hj : j.val = off + k.val) : w2cols x3 off inb (ix2 e k) = x3 (ix2 e j) := by
  show x3 _ = x3 _
  refine congrArg x3 (funext fun a => Fin.ext ?_)
  match a with
  | ⟨0, _⟩ => show 0 + 1 * e.val = e.val; omega
  | ⟨1, _⟩ => show off + 1 * k.val = j.val; omega

/-- Block `f`'s contribution at (p, e) is block `f`'s partial sum of the layer for token `p`. -/
theorem blockOut_feats_apply (x0 : Vec Ideal S1024x128 .f32) (x1 : Vec Ideal S1x10 .f32) (x2 : Vec Ideal S4096x10 .bf16)
    (x3 : Vec Ideal S1024x4096 .bf16) (f : Fin 4) (off : Nat) (hoff : off = 1024 * f.val) (inb1) (inb2) (p e : Fin 1024) :
    blockOut (k0_pay2 x0 x1) (w1rows x2 off inb1) (w2cols x3 off inb2) (ix2 p e)
      = blockSum (feature (fun q => x0 (ix2 p (lane128 q))) (fun q => x1 (ix2 (0 : Fin 1) q)))
          (fun j q => x2 (ix2 j q)) (fun j => x3 (ix2 e j)) f := by
  rw [blockOut_apply]
  unfold blockSum hiddenUnit
  refine Finset.sum_congr rfl fun k _ => ?_
  have hk : (hid f k).val = off + k.val := by rw [hoff]; rfl
  rw [w2cols_apply x3 off inb2 e k (hid f k) hk]
  congr 2
  refine Finset.sum_congr rfl fun q _ => ?_
  rw [w1rows_apply x2 off inb1 k q (hid f k) hk, feats_apply]

/-- Entry (p, e) of a step's output block: the layer's blocked sum for the step's token `p` and row `e`. -/
theorem stepOut_apply (x0 : Vec Ideal S1024x128 .f32) (x1 : Vec Ideal S1x10 .f32) (x2 : Vec Ideal S4096x10 .bf16)
    (x3 : Vec Ideal S1024x4096 .bf16) (p e : Fin 1024) :
    stepOut x0 x1 x2 x3 (ix2 p e)
      = layerBlocked (feature (fun q => x0 (ix2 p (lane128 q))) (fun q => x1 (ix2 (0 : Fin 1) q)))
          (fun j q => x2 (ix2 j q)) (fun j => x3 (ix2 e j)) := by
  unfold stepOut layerBlocked
  simp only [addf_apply, broadcast_apply]
  rw [blockOut_feats_apply x0 x1 x2 x3 0 0 rfl, blockOut_feats_apply x0 x1 x2 x3 1 1024 rfl,
    blockOut_feats_apply x0 x1 x2 x3 2 2048 rfl, blockOut_feats_apply x0 x1 x2 x3 3 3072 rfl]
  rfl

end Cert.KernelIdeal.Body

end
-- ==== Proof.KernelValue.lean ====
/-
  The kernel's run read as values: its result array is the layer function of the argument arrays.

  Before the grid the host lays the tokens out as the 16384 rows of one matrix, the angles as a one-row matrix, and
  changes the weights' float format (the identity on extended reals). Grid step t holds token rows 1024·t … 1024·t + 1023
  (their 128 leading lanes), the angles and both weight matrices whole, and writes back rows 1024·t … 1024·t + 1023 of the
  output matrix; the sixteen steps' row blocks tile the output matrix, so after the run entry (r, e) of it is the blocked
  layer sum for token row r and row e of the second weight matrix. The host's last reshape returns the matrix to
  [8, 2048, 1024], token (b, s) being row 2048·b + s.
-/
import proofs.«165231_j65481071397693_2_alg».proof.Proof.BodyValue
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.KernelValue

open Cert.KernelIdeal Cert.KernelIdeal.Gen Cert.KernelIdeal.Body Cert.CosFFN

variable (m : (ℓ : Loc nD τ sig) → Buf (Elt Ideal) ℓ) (ρ : Dev nD → PrngReg)

/-- The printed index maps, decided once over the sixteen grid steps: the token block and the output block move with
    the step along the rows; the angles and the weight matrices stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Step `t`'s token block: row `p`, lane `l` of it is row 1024·t + p, lane `l` of the token matrix. -/
theorem tokens_read (c : Dev nD) (t : Fin cfg0.N) (p : Fin 1024) (l : Fin 128) (r : Fin 16384) (l' : Fin 1024)
    (hr : r.val = 1024 * t.val + p.val) (hl : l'.val = l.val) :
    (iblk m c 0 t : Vec Ideal S1024x128 .f32) (ix2 p l) = (V m c main_v0 : S16384x1024.Idx → EReal) (ix2 r l') := by
  obtain ⟨e0, e1, -⟩ := idx_facts t
  show V m c main_v0 (((cfg0.win 0).blk t).view.emb (ix2 p l)) = V m c main_v0 (ix2 r l')
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 128 + 1 * l.val = l'.val; omega

/-- Step `t`'s block of the angles is the whole one-row matrix. -/
theorem angles_read (c : Dev nD) (t : Fin cfg0.N) (q : Fin 10) :
    (iblk m c 1 t : Vec Ideal S1x10 .f32) (ix2 (0 : Fin 1) q) = (V m c main_v1 : S1x10.Idx → EReal) (ix2 (0 : Fin 1) q) := by
  obtain ⟨-, -, e0, e1, -⟩ := idx_facts t
  show V m c main_v1 (((cfg0.win 1).blk t).view.emb (ix2 (0 : Fin 1) q)) = V m c main_v1 (ix2 (0 : Fin 1) q)
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 10 + 1 * q.val = q.val; omega

/-- Step `t`'s block of the first weight matrix is the whole matrix. -/
theorem w1_read (c : Dev nD) (t : Fin cfg0.N) (j : Fin 4096) (q : Fin 10) :
    (iblk m c 2 t : Vec Ideal S4096x10 .bf16) (ix2 j q) = (V m c main_v2 : S4096x10.Idx → EReal) (ix2 j q) := by
  obtain ⟨-, -, -, -, e0, e1, -⟩ := idx_facts t
  show V m c main_v2 (((cfg0.win 2).blk t).view.emb (ix2 j q)) = V m c main_v2 (ix2 j q)
  refine congrArg (V m c main_v2) (funext fun a => Fin.ext ?_)
  match a with
  | ⟨0, _⟩ => show win0_2.index t (0 : Fin 2) * 4096 + 1 * j.val = j.val; omega
  | ⟨1, _⟩ => show win0_2.index t (1 : Fin 2) * 10 + 1 * q.val = q.val; omega

/-- Step `t`'s block of the second weight matrix is the whole matrix. -/
theorem w2_read (c : Dev nD) (t : Fin cfg0.N) (e : Fin 1024) (j : Fin 4096) :
    (iblk m c 3 t : Vec Ideal S1024x4096 .bf16) (ix2 e j) = (V m c main_v3 : S1024x4096.Idx → EReal) (ix2 e j) := by
  obtain ⟨-, -, -, -, -, -, e0, e1, -⟩ := idx_facts t
  show V m c main_v3 (((cfg0.win 3).blk t).view.emb (ix2 e j)) = V m c main_v3 (ix2 e j)
  refine congrArg (V m c main_v3) (funext fun a => Fin.ext ?_)
  match a with
  | ⟨0, _⟩ => show win0_3.index t (0 : Fin 2) * 1024 + 1 * e.val = e.val; omega
  | ⟨1, _⟩ => show win0_3.index t (1 : Fin 2) * 4096 + 1 * j.val = j.val; omega

/-- The output matrix as one function of the arrays the grid finds. -/
abbrev rowsOut (c : Dev nD) : S16384x1024.Idx → EReal :=
  resultRows (V m c main_v0) (V m c main_v1) (V m c main_v2) (V m c main_v3)

/-- Entry `y` of what step `t` leaves is the output matrix's function at row 1024·t + y₀, column y₁. -/
theorem step_value (c : Dev nD) (t : Fin cfg0.N) (y : S1024x1024.Idx) (i : S16384x1024.Idx)
    (hi0 : (i 0).val = 1024 * t.val + (y 0).val) (hi1 : (i 1).val = (y 1).val) :
    stepOut (iblk m c 0 t) (iblk m c 1 t) (iblk m c 2 t) (iblk m c 3 t) y = rowsOut m c i := by
  obtain ⟨p, e, rfl⟩ : ∃ (p : Fin 1024) (e : Fin 1024), y = ix2 p e := ⟨y 0, y 1, eq_ix2 y⟩
  obtain ⟨r, e', rfl⟩ : ∃ (r : Fin 16384) (e' : Fin 1024), i = ix2 r e' := ⟨i 0, i 1, eq_ix2 i⟩
  obtain rfl : e' = e := Fin.ext hi1
  rw [stepOut_apply]
  show layerBlocked (feature _ _) _ _ = layerBlocked (feature (fun q => V m c main_v0 (ix2 r (lane q))) (fun q => V m c main_v1 (ix2 (0 : Fin 1) q)))
    (fun j q => V m c main_v2 (ix2 j q)) (fun j => V m c main_v3 (ix2 e' j))
  have h0 : (fun q : Fin 10 => (iblk m c 0 t : Vec Ideal S1024x128 .f32) (ix2 p (lane128 q)))
      = fun q => (V m c main_v0 : S16384x1024.Idx → EReal) (ix2 r (lane q)) :=
    funext fun q => tokens_read m c t p (lane128 q) r (lane q) hi0 rfl
  have h1 : (fun q : Fin 10 => (iblk m c 1 t : Vec Ideal S1x10 .f32) (ix2 (0 : Fin 1) q))
      = fun q => (V m c main_v1 : S1x10.Idx → EReal) (ix2 (0 : Fin 1) q) := funext fun q => angles_read m c t q
  have h2 : (fun (j : Fin 4096) (q : Fin 10) => (iblk m c 2 t : Vec Ideal S4096x10 .bf16) (ix2 j q))
      = fun j q => (V m c main_v2 : S4096x10.Idx → EReal) (ix2 j q) := funext fun j => funext fun q => w1_read m c t j q
  have h3 : (fun j : Fin 4096 => (iblk m c 3 t : Vec Ideal S1024x4096 .bf16) (ix2 e' j))
      = fun j => (V m c main_v3 : S1024x4096.Idx → EReal) (ix2 e' j) := funext fun j => w2_read m c t e' j
  rw [h0, h1, h2, h3]

/-- WHAT STEP `t` WRITES BACK is block `t` of the output matrix's function. -/
theorem flushed_eq (c : Dev nD) (t : Fin cfg0.N) :
    (dats m 0 c).flushed 4 t = ((cfg0.win 4).blk t).view.read (Elt Ideal) (rowsOut m c) := by
  show (cfg0.win 4).cut (grid0.coords t) ((dats m 0 c).after 4 t) = _
  rw [after0_4]
  unfold outsAt0
  rw [out_eq]
  obtain ⟨-, -, -, -, -, -, -, -, e0, e1⟩ := idx_facts t
  funext y
  show stepOut (iblk m c 0 t) (iblk m c 1 t) (iblk m c 2 t) (iblk m c 3 t) y = rowsOut m c (((cfg0.win 4).blk t).view.emb y)
  refine step_value m c t y _ ?_ ?_
  · show win0_4.index t (0 : Fin 2) * 1024 + 1 * (y 0).val = 1024 * t.val + (y 0).val; omega
  · show win0_4.index t (1 : Fin 2) * 1024 + 1 * (y 1).val = (y 1).val; omega

/-- An index of the output matrix is in step `t`'s block iff each coordinate is in the block's range on its axis. -/
theorem mem_blk (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v4).slice (win0_4.rect t)).set ↔ _
  rw [View.set_slice_whole, Rect.mem_set_unit]
  exact Iff.rfl

/-- Every row of the output matrix is in some step's block: row r in step r / 1024's. -/
theorem covered (i : S16384x1024.Idx) : ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 16 := N_0
  let t : Fin cfg0.N := ⟨(i 0).val / 1024, by rw [hN]; omega⟩
  obtain ⟨-, -, -, -, -, -, -, -, e0, e1⟩ := idx_facts t
  have ht : t.val = (i 0).val / 1024 := rfl
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE OUTPUT MATRIX after the run is its function of the arrays the grid found. -/
theorem final (c : Dev nD) : (dats m 0 c).arrAt 4 cfg0.N = rowsOut m c :=
  (dats m 0 c).arrAt_eq_of_cover 4 (rowsOut m c) (fun t _ => flushed_eq m c t) (covered)

end Cert.KernelIdeal.KernelValue

end
-- ==== Proof.KernelRun.lean ====
/-
  The kernel's whole run: the host's re-layouts before and after the grid, and the result as the layer function.

  The token matrix the grid reads is the [8, 2048, 1024] argument reshaped row-major, so its row 2048·b + s is token
  (b, s); the angles' one-row matrix is the ten angles; the weights only change float format, which is the identity on
  extended reals. After the grid the output matrix is reshaped back to [8, 2048, 1024]. Entry (b, s, e) of the result is
  therefore the output matrix's entry (2048·b + s, e), the blocked layer sum of token (b, s) — the layer function.
-/
import proofs.«165231_j65481071397693_2_alg».proof.Proof.KernelValue

noncomputable section

open Idealize.ShloMosaic Idealize.ShloMosaic.TcCoe Idealize.SL.Sem Idealize.ShloMosaic.ValueIdx
open Idealize.ShloMosaic.Pipeline (Dat)
open scoped BigOperators

namespace Cert.KernelIdeal.KernelValue

open Cert.KernelIdeal Cert.KernelIdeal.Gen Cert.KernelIdeal.Body Cert.CosFFN

variable (m : (ℓ : Loc nD τ sig) → Buf (Elt Ideal) ℓ) (ρ : Dev nD → PrngReg)

/-- The token matrix the grid finds: the tokens reshaped to 16384 rows. -/
theorem V_tokens (c : Dev nD) : (V m c main_v0 : S16384x1024.Idx → EReal)
    = shapeCast S16384x1024 (m ((c : Thread nD τ).loc main_arg0)) Facts₀.shapeCasts_S8x2048x1024_S16384x1024 := by
  show StableHlo.after hostOps0 (fun b => m (c, b)) (Proc.devRef .tc main_v0) = _
  after_results
  rfl

/-- The angles' matrix the grid finds: the ten angles as one row. -/
theorem V_angles (c : Dev nD) : (V m c main_v1 : S1x10.Idx → EReal)
    = shapeCast S1x10 (m ((c : Thread nD τ).loc main_arg1)) Facts₀.shapeCasts_S10_S1x10 := by
  show StableHlo.after hostOps0 (fun b => m (c, b)) (Proc.devRef .tc main_v1) = _
  after_results
  rfl

/-- The first weight matrix the grid finds is the argument (a change of float format is the identity here). -/
theorem V_w1 (c : Dev nD) : (V m c main_v2 : S4096x10.Idx → EReal) = m ((c : Thread nD τ).loc main_arg2) := by
  show StableHlo.after hostOps0 (fun b => m (c, b)) (Proc.devRef .tc main_v2) = _
  after_results
  rfl

/-- The second weight matrix the grid finds is the argument. -/
theorem V_w2 (c : Dev nD) : (V m c main_v3 : S1024x4096.Idx → EReal) = m ((c : Thread nD τ).loc main_arg3) := by
  show StableHlo.after hostOps0 (fun b => m (c, b)) (Proc.devRef .tc main_v3) = _
  after_results
  rfl

/-- Row 2048·b + s of the token matrix is token (b, s): the same row-major position. -/
theorem tokens_apply (c : Dev nD) (b : Fin 8) (s : Fin 2048) (l : Fin 1024) :
    (V m c main_v0 : S16384x1024.Idx → EReal) (ix2 (tokRow b s) l) = m ((c : Thread nD τ).loc main_arg0) (ix3 b s l) := by
  rw [V_tokens]
  refine shapeCast_apply _ _ (ix2 (tokRow b s) l) (ix3 b s l) ?_
  rw [Shape.rowMajor_val_three, Shape.rowMajor_val_two]
  show (b.val * 2048 + s.val) * 1024 + l.val = (2048 * b.val + s.val) * 1024 + l.val
  omega

/-- The angles' one row holds the ten angles. -/
theorem angles_apply (c : Dev nD) (q : Fin 10) :
    (V m c main_v1 : S1x10.Idx → EReal) (ix2 (0 : Fin 1) q) = m ((c : Thread nD τ).loc main_arg1) (ix1 q) := by
  rw [V_angles]
  exact shapeCast_a_1a_apply _ _ 0 q

/-- The layer function of the launch contents of the four arguments. -/
abbrev out (c : Dev nD) : S8x2048x1024.Idx → EReal :=
  result (m ((c : Thread nD τ).loc main_arg0)) (m ((c : Thread nD τ).loc main_arg1)) (m ((c : Thread nD τ).loc main_arg2))
    (m ((c : Thread nD τ).loc main_arg3))

/-- Entry (2048·b + s, e) of the output matrix is entry (b, s, e) of the layer function. -/
theorem rowsOut_apply (c : Dev nD) (b : Fin 8) (s : Fin 2048) (e : Fin 1024) :
    rowsOut m c (ix2 (tokRow b s) e) = out m c (ix3 b s e) := by
  unfold rowsOut out
  rw [V_w1, V_w2]
  exact resultRows_eq _ _ _ _ _ _ (fun b s l => tokens_apply m c b s l) (fun q => angles_apply m c q) b s e

/-- THE RESULT: the host's last reshape of the output matrix is the layer function of the arguments. -/
theorem tail_eq (c : Dev nD) :
    Pipeline.afterTail₀ cfgs (dats m) 0 (V0 m) [hostOps1] c main_v5 = out m c := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = rowsOut m c :=
    (Pipeline.withArrays_arr spec0 launch0.win.arr_inj c _ _ 4).trans (final m c)
  rw [hw]
  funext i
  obtain ⟨b, s, e, rfl⟩ : ∃ (b : Fin 8) (s : Fin 2048) (e : Fin 1024), i = ix3 b s e := ⟨i 0, i 1, i 2, eq_ix3 i⟩
  show shapeCast S8x2048x1024 (rowsOut m c) Facts₀.shapeCasts_S16384x1024_S8x2048x1024 (ix3 b s e) = _
  refine (shapeCast_apply _ _ (ix3 b s e) (ix2 (tokRow b s) e) ?_).trans (rowsOut_apply m c b s e)
  rw [Shape.rowMajor_val_three, Shape.rowMajor_val_two]
  show (2048 * b.val + s.val) * 1024 + e.val = (b.val * 2048 + s.val) * 1024 + e.val
  omega

/-- The run, read: every weakly fair execution ends with the result at the layer function of the arguments' launch
    contents, and the arguments unchanged. -/
theorem run : θ_run defs (onTc (τ := τ) (main (F := Ideal))) ⟨m, fun _ => 0, ρ⟩ fun r => ∀ c : Dev nD,
      r.2.mem ((c.tc : Thread nD τ).loc main_v5) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v5 (Pipeline.mem_restRefs_of main_v5 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.KernelValue

end
-- ==== Proof.lean ====
/-
  A feed-forward layer on ten cosine features, computed by a tiled kernel, against its plain reference.

  Both programs take tokens x : [8, 2048, 1024], ten angles θ, and weights w1 : [4096, 10], w2 : [1024, 4096]. A token's
  ten features are cos (x_q) · cos (θ_q) over its first ten lanes; the layer expands them to 4096 hidden units
  h_j = max (Σ_q feature_q · w1 j q) 0 and returns, for each e, Σ_j h_j · w2 e j.

  The reference does exactly that with two whole contractions. The kernel lays the tokens out as 16384 rows, gives each
  of sixteen grid steps 1024 of them, and inside a step cuts the hidden axis into four blocks of 1024 units whose partial
  products it adds, one after another, onto an accumulator that starts at zero. Over the extended reals a change of float
  format is the identity and both programs' cosines, products, maxima and sums are the exact ones, so the only difference
  is the grouping of the sum over the hidden axis: a sum over 4096 terms against four consecutive sums of 1024 terms
  added onto zero. These agree with no condition on the terms (sums on the extended reals are commutative and
  associative, and 0 + a = a), so the finiteness of the inputs is never used.

  Modules: Spec (the layer function and the regrouping law), RefValue (the reference is the layer function), Body and
  BodyValue (what one grid step leaves, entry by entry), KernelValue (the grid's output matrix), KernelRun (the host
  re-layouts around the grid and the kernel's run).
-/
import proofs.«165231_j65481071397693_2_alg».proof.Defs
import proofs.«165231_j65481071397693_2_alg».proof.Proof.Gen.Kernel
import proofs.«165231_j65481071397693_2_alg».proof.Proof.Gen.Kernel.Frame
import proofs.«165231_j65481071397693_2_alg».proof.Proof.Gen.KernelIdeal
import proofs.«165231_j65481071397693_2_alg».proof.Proof.Gen.KernelIdeal.Frame
import proofs.«165231_j65481071397693_2_alg».proof.Proof.Gen.ReferenceIdeal
import proofs.«165231_j65481071397693_2_alg».proof.Proof.Gen.ReferenceIdeal.Run
import proofs.«165231_j65481071397693_2_alg».proof.Proof.Gen.ReferenceIdeal.Read
import proofs.«165231_j65481071397693_2_alg».proof.Proof.Gen.Pre_finite_inputs
import proofs.«165231_j65481071397693_2_alg».proof.Proof.RefValue
import proofs.«165231_j65481071397693_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs to the end and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From arguments that agree, both programs end with the layer function of the arguments: the kernel by its run read
    block by block, the reference by its run read operation by operation. -/
theorem algebraic : Cert.algebraic_KernelIdeal_ReferenceIdeal := by
  intro m ρ m' ρ' _ hagree
  refine ⟨fun c => Cert.KernelIdeal.KernelValue.out m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
